-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel

variable [Facts]

def fn {F : FTy → Type} [FloatOps F] (main_arg0 : FVec F S32768x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  main_v3
-- ==== Kernel.lean ====
abbrev S32768x768 : Shape := ⟨2, ![32768, 768]⟩
abbrev S1x768 : Shape := ⟨2, ![1, 768]⟩
abbrev S2048x768 : Shape := ⟨2, ![2048, 768]⟩

abbrev nBuf : Space → Nat
  | .hbm => 4
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S1x768, .f32⟩
  | .hbm, ⟨2, _⟩ => ⟨S1x768, .f32⟩
  | .hbm, ⟨3, _⟩ => ⟨S32768x768, .f32⟩
  | .local _ .vmem, ⟨0, _⟩ => ⟨S2048x768, .f32⟩
  | .local _ .vmem, ⟨1, _⟩ => ⟨S2048x768, .f32⟩
  | .local _ .vmem, ⟨2, _⟩ => ⟨S1x768, .f32⟩
  | .local _ .vmem, ⟨3, _⟩ => ⟨S1x768, .f32⟩
  | .local _ .vmem, ⟨4, _⟩ => ⟨S2048x768, .f32⟩
  | .local _ .vmem, ⟨5, _⟩ => ⟨S2048x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x768_S2048x768_0_0 : ∀ a, (![0, 0] : Fin 2 → Nat) a + S2048x768.size a ≤ S2048x768.size a
  h_S2048x768 : 0 < S2048x768.numel
  inb_S1x768_S1x768_0_0 : ∀ a, (![0, 0] : Fin 2 → Nat) a + S1x768.size a ≤ S1x768.size a
  h_S1x768 : 0 < S1x768.numel
  broadcasts_S1x768_S2048x768 : S1x768.Broadcasts S2048x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S32768x768.size a
  hwx0_3 : ∀ i : grid0.Coords, EltTy.bits .f32 = 32 ∨ (Rect.block (s := S32768x768) S2048x768.size (cc0_transform_3 i) (hinb0_3 i)).WholeWords (EltTy.packing .f32)

variable [Facts₀]

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S32768x768 : Shape := ⟨2, ![32768, 768]⟩
abbrev S6 : Shape := ⟨1, ![6]⟩
abbrev S32768x128x6 : Shape := ⟨3, ![32768, 128, 6]⟩
abbrev S1x1x6 : Shape := ⟨3, ![1, 1, 6]⟩

abbrev nBuf : Space → Nat
  | .hbm => 11
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S6, .f32⟩
  | .hbm, ⟨2, _⟩ => ⟨S6, .f32⟩
  | .hbm, ⟨3, _⟩ => ⟨S32768x128x6, .f32⟩
  | .hbm, ⟨4, _⟩ => ⟨S1x1x6, .f32⟩
  | .hbm, ⟨5, _⟩ => ⟨S32768x128x6, .f32⟩
  | .hbm, ⟨6, _⟩ => ⟨S32768x128x6, .f32⟩
  | .hbm, ⟨7, _⟩ => ⟨S1x1x6, .f32⟩
  | .hbm, ⟨8, _⟩ => ⟨S32768x128x6, .f32⟩
  | .hbm, ⟨9, _⟩ => ⟨S32768x128x6, .f32⟩
  | .hbm, ⟨10, _⟩ => ⟨S32768x768, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S32768x768_S32768x128x6 : S32768x768.ShapeCasts S32768x128x6
  bcast_S6_S1x1x6_2 : S6.BroadcastsInDim S1x1x6 (![2] : Fin 1 → Fin S1x1x6.rank)
  bcast_S1x1x6_S32768x128x6_0_1_2 : S1x1x6.BroadcastsInDim S32768x128x6 (![0, 1, 2] : Fin 3 → Fin S32768x128x6.rank)
  shapeCasts_S32768x128x6_S32768x768 : S32768x128x6.ShapeCasts S32768x768

variable [Facts₀]

class Facts : Prop extends Facts₀ where

variable [Facts]
-- ==== Proof.Affine.lean ====
/-
  The specification both programs meet: a per-column affine map of a 32768 × 768 array,

      out[r, c] = x[r, c] · s(c) + t(c),

  with the scale `s` and the shift `t` given as functions of the column number. The product is taken first and the
  shift added to it, in that order, on both sides, so no law of the extended reals is needed to join them: the two
  programs differ only in how they spell the column's scale and shift — the kernel keeps one full row of 768 words
  for each, the reference a table of six words read at the column's residue modulo 6 — and `colAffine` depends on
  `s` and `t` only at the 768 column numbers (`colAffine_congr`).
-/
import Idealize.ShloMosaic.PureOps
import Idealize.ShloMosaic.Lib.ValueIdx

noncomputable section

namespace Cert.Affine

open Idealize.ShloMosaic

/-- The shape of the argument and of the result: 32768 rows of 768 columns. -/
abbrev Arr : Shape := ⟨2, ![32768, 768]⟩

variable {F : FTy → Type} [FloatOps F]

/-- `out[r, c] = x[r, c] · s(c) + t(c)`: the entry times its column's scale, plus its column's shift. -/
def colAffine (s t : Nat → Elt F .f32) (x : Arr.Idx → Elt F .f32) : Arr.Idx → Elt F .f32 :=
  fun i => FloatOps.addf (FloatOps.mulf (x i) (s (i 1).val)) (t (i 1).val)

/-- Only the 768 column numbers are ever read: two scales and two shifts that agree below 768 give one map. -/
theorem colAffine_congr {s s' t t' : Nat → Elt F .f32} (hs : ∀ n, n < 768 → s n = s' n) (ht : ∀ n, n < 768 → t n = t' n)
    (x : Arr.Idx → Elt F .f32) : colAffine s t x = colAffine s' t' x := by
  funext i
  have h : (i 1).val < 768 := (i 1).isLt
  unfold colAffine
  rw [hs _ h, ht _ h]

end Cert.Affine

end
-- ==== Proof.Tables.lean ====
/-
  The two spellings of the scale and of the shift hold the same words: the kernel's row of 768 scale words is the
  reference's six scale words repeated 128 times, column `n` holding word `n mod 6`, and likewise the shifts. Both
  are finite tables of 32-bit words, so the statement is checked entry by entry over the 768 columns.
-/
import proofs.«162741_j82592221102246_2_alg».proof.KernelIdeal
import proofs.«162741_j82592221102246_2_alg».proof.ReferenceIdeal

namespace Cert.Tables

/-- Column `n`'s scale word in the kernel's row is the reference's scale word at `n mod 6`. -/
theorem scale_period : ∀ n : Fin 768, Cert.KernelIdeal.lit0t n.val = Cert.ReferenceIdeal.lit0 ⟨n.val % 6, Nat.mod_lt _ (by decide)⟩ := by
  decide +kernel

/-- Column `n`'s shift word in the kernel's row is the reference's shift word at `n mod 6`. -/
theorem shift_period : ∀ n : Fin 768, Cert.KernelIdeal.lit1t n.val = Cert.ReferenceIdeal.lit1 ⟨n.val % 6, Nat.mod_lt _ (by decide)⟩ := by
  decide +kernel

end Cert.Tables
-- ==== Proof.KernelArray.lean ====
/-
  The kernel's result array as one function of the argument. The grid has 16 points; point `t` stages rows
  `2048·t … 2048·t + 2047` of the argument (all 768 columns), the whole row of 768 scale words and the whole row of 768
  shift words, and its body writes `x · scale + shift` with the two rows broadcast down the 2048 rows of the block. So
  what point `t` writes back is block `t` of the per-column affine map of the argument (`flushed_eq`), the 16 blocks
  tile the array (`cover`), and the array ends holding that map (`final`, `run`).
-/
import proofs.«162741_j82592221102246_2_alg».proof.Proof.Gen.KernelIdeal.Value
import proofs.«162741_j82592221102246_2_alg».proof.Proof.Affine
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Cert.Affine (colAffine)

variable {F : FTy → Type} [FloatOps F]
variable (m : (ℓ : Loc nD τ sig) → Buf (Elt F) ℓ) (ρ : Dev nD → PrngReg)

/-- Column `n`'s scale: the `n`-th word of the kernel's scale row. -/
def scaleAt (n : Nat) : Elt F .f32 := FloatOps.ofBits .f32 (lit0t n)
/-- Column `n`'s shift: the `n`-th word of the kernel's shift row. -/
def shiftAt (n : Nat) : Elt F .f32 := FloatOps.ofBits .f32 (lit1t n)

theorem hz : (![0, 0] : Fin 2 → Nat) = fun _ => 0 := funext fun a => by fin_cases a <;> rfl

/-! ## What the region finds in the two constant rows -/

/-- The scale row as the region finds it: the table's words in row-major order. -/
theorem V_scale (c : Dev nD) :
    (V m c main_cst : S1x768.Idx → Elt F .f32) = fun i => FloatOps.ofBits .f32 (lit0 (S1x768.rowMajor i)) := by
  dsimp only [Gen.V, Gen.hostOps0]; after_results; rfl

/-- The shift row as the region finds it. -/
theorem V_shift (c : Dev nD) :
    (V m c main_cst_0 : S1x768.Idx → Elt F .f32) = fun i => FloatOps.ofBits .f32 (lit1 (S1x768.rowMajor i)) := by
  dsimp only [Gen.V, Gen.hostOps0]; after_results; rfl

/-- Entry `(0, n)` of the scale row is column `n`'s scale. -/
theorem scale_read (k : S1x768.Idx) (n : Nat) (h : (k 0).val * 768 + (k 1).val = n) :
    FloatOps.ofBits .f32 (lit0 (S1x768.rowMajor k)) = scaleAt (F := F) n := by
  subst h
  unfold scaleAt
  have e : (S1x768.rowMajor k).val = (k 0).val * 768 + (k 1).val := Shape.rowMajor_val_two k
  rw [← e]

/-- Entry `(0, n)` of the shift row is column `n`'s shift. -/
theorem shift_read (k : S1x768.Idx) (n : Nat) (h : (k 0).val * 768 + (k 1).val = n) :
    FloatOps.ofBits .f32 (lit1 (S1x768.rowMajor k)) = shiftAt (F := F) n := by
  subst h
  unfold shiftAt
  have e : (S1x768.rowMajor k).val = (k 0).val * 768 + (k 1).val := Shape.rowMajor_val_two k
  rw [← e]

/-! ## The body at an index of the block -/

/-- What the body leaves at entry `y` of the output block: the `x` block's entry times the scale row's entry in
    `y`'s column, plus the shift row's. -/
theorem out_apply (x0 : Vec F S2048x768 .f32) (x1 x2 : Vec F S1x768 .f32) (y : S2048x768.Idx) :
    out0_3 x0 x1 x2 y = FloatOps.addf (FloatOps.mulf (x0 y) (x1 (Value.ix3_1 y))) (x2 (Value.ix3_2 y)) := by
  unfold out0_3
  rw [Value.canon3_eq]
  simp only [View.ld_unit_zero (S := S2048x768) hz, View.ld_unit_zero (S := S1x768) hz]
  have e : Value.ix3_0 y = y := funext fun a => Fin.ext (by match a with | ⟨0, _⟩ => rfl | ⟨1, _⟩ => rfl)
  show FloatOps.addf (FloatOps.mulf (x0 (Value.ix3_0 y)) (x1 (Value.ix3_1 y))) (x2 (Value.ix3_2 y)) = _
  rw [e]

/-! ## From blocks to the array -/

/-- The printed index maps over the 16 points: the argument's window and the result's sit at block row `t`, block
    column 0; the two constant rows are always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the per-column affine map of the argument as the region finds it. -/
theorem flushed_eq (c : Dev nD) (t : Fin cfg0.N) :
    (dats m 0 c).flushed 3 t
      = ((cfg0.win 3).blk t).view.read (Elt F) (colAffine (scaleAt (F := F)) (shiftAt (F := F)) (V m c main_arg0)) := by
  show (cfg0.win 3).cut (grid0.coords t) ((dats m 0 c).after 3 t) = _
  rw [after0_3]
  obtain ⟨e00, e01, e10, e11, e20, e21, e30, e31⟩ := idx_facts t
  funext j
  have hj0 : (j 0).val < 2048 := (j 0).isLt
  have hj1 : (j 1).val < 768 := (j 1).isLt
  show out0_3 (iblk m c 0 t) (iblk m c 1 t) (iblk m c 2 t) j
    = colAffine (scaleAt (F := F)) (shiftAt (F := F)) (V m c main_arg0) (((cfg0.win 3).blk t).view.emb j)
  rw [out_apply]
  show FloatOps.addf (FloatOps.mulf (V m c main_arg0 (((cfg0.win 0).blk t).view.emb j))
        ((V m c main_cst : S1x768.Idx → Elt F .f32) (((cfg0.win 1).blk t).view.emb (Value.ix3_1 j))))
        ((V m c main_cst_0 : S1x768.Idx → Elt F .f32) (((cfg0.win 2).blk t).view.emb (Value.ix3_2 j)))
    = FloatOps.addf (FloatOps.mulf (V m c main_arg0 (((cfg0.win 3).blk t).view.emb j))
        (scaleAt ((((cfg0.win 3).blk t).view.emb j) 1).val)) (shiftAt ((((cfg0.win 3).blk t).view.emb j) 1).val)
  have h0 : ((cfg0.win 0).blk t).view.emb j = ((cfg0.win 3).blk t).view.emb j := by
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 768 + 1 * (j 1).val = win0_3.index t (1 : Fin 2) * 768 + 1 * (j 1).val; omega
  have hc : ((((cfg0.win 3).blk t).view.emb j) 1).val = (j 1).val := by
    show win0_3.index t (1 : Fin 2) * 768 + 1 * (j 1).val = (j 1).val; omega
  rw [h0, hc, V_scale, V_shift]
  have h1 : FloatOps.ofBits .f32 (lit0 (S1x768.rowMajor (((cfg0.win 1).blk t).view.emb (Value.ix3_1 j)))) = scaleAt (F := F) (j 1).val :=
    scale_read _ _ (by
      show (win0_1.index t (0 : Fin 2) * 1 + 1 * 0) * 768 + (win0_1.index t (1 : Fin 2) * 768 + 1 * (j 1).val) = (j 1).val; omega)
  have h2 : FloatOps.ofBits .f32 (lit1 (S1x768.rowMajor (((cfg0.win 2).blk t).view.emb (Value.ix3_2 j)))) = shiftAt (F := F) (j 1).val :=
    shift_read _ _ (by
      show (win0_2.index t (0 : Fin 2) * 1 + 1 * 0) * 768 + (win0_2.index t (1 : Fin 2) * 768 + 1 * (j 1).val) = (j 1).val; omega)
  show FloatOps.addf (FloatOps.mulf _ (FloatOps.ofBits .f32 (lit0 (S1x768.rowMajor (((cfg0.win 1).blk t).view.emb (Value.ix3_1 j))))))
      (FloatOps.ofBits .f32 (lit1 (S1x768.rowMajor (((cfg0.win 2).blk t).view.emb (Value.ix3_2 j))))) = _
  rw [h1, h2]

/-- An index of the array is in point `t`'s block iff each coordinate is in the block's range on its axis. -/
theorem mem_blk (t : Fin cfg0.N) (i : S32768x768.Idx) :
    i ∈ ((cfg0.win 3).blk t).view.set ↔ ∀ a : Fin 2, win0_3.index t a * S2048x768.size a ≤ (i a).val ∧ (i a).val < win0_3.index t a * S2048x768.size a + S2048x768.size a := by
  show i ∈ ((View.whole main_v0).slice (win0_3.rect t)).set ↔ _
  rw [View.set_slice_whole, Rect.mem_set_unit]
  exact Iff.rfl

/-- The 16 blocks tile the array: row `r` is in the block of point `r / 2048`. -/
theorem cover (i : S32768x768.Idx) : ∃ t : Fin cfg0.N, (cfg0.win 3).flush t = true ∧ i ∈ ((cfg0.win 3).blk t).view.set := by
  have hi0 : (i 0).val < 32768 := (i 0).isLt
  have hi1 : (i 1).val < 768 := (i 1).isLt
  have hN : cfg0.N = 16 := N_0
  let t : Fin cfg0.N := ⟨(i 0).val / 2048, by rw [hN]; omega⟩
  have ht : t.val = (i 0).val / 2048 := rfl
  obtain ⟨-, -, -, -, -, -, e30, e31⟩ := idx_facts t
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 768 ≤ (i 1).val ∧ (i 1).val < win0_3.index t (1 : Fin 2) * 768 + 768; omega

/-- The result array after the run: the per-column affine map of the argument as launched. -/
theorem final (c : Dev nD) :
    (dats m 0 c).arrAt 3 cfg0.N = colAffine (scaleAt (F := F)) (shiftAt (F := F)) (m ((c : Thread nD τ).loc main_arg0)) := by
  rw [← V_main_arg0 m c]
  exact (dats m 0 c).arrAt_eq_of_cover 3 _ (fun t _ => flushed_eq m c t) cover

/-- The run, read: the result at the per-column affine map of the argument, the argument unchanged. -/
theorem run : θ_run defs (onTc (τ := τ) (main (F := F))) ⟨m, fun _ => 0, ρ⟩ fun r => ∀ c : Dev nD,
      r.2.mem ((c : Thread nD τ).loc main_v0) = colAffine (scaleAt (F := F)) (shiftAt (F := F)) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.RefRun.lean ====
/-
  The reference's run. Its @main is ten host operations in a straight line: the two tables of six words (the scales
  and the shifts), the argument viewed as 32768 × 128 groups of 6, each table broadcast along the last axis to that
  shape, the product with the scales, the sum with the shifts, and the view back as 32768 × 768. Every weakly fair
  execution runs them in order and ends with the result buffer at the operations' composed term of the argument
  (`refTerm`), the argument itself unchanged.
-/
import proofs.«162741_j82592221102246_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The six scale words as an array. -/
abbrev scales : (⟨S6, .f32⟩ : BufTy).Contents (Elt F) := fun i => FloatOps.ofBits .f32 (lit0 (S6.rowMajor i))
/-- The six shift words as an array. -/
abbrev shifts : (⟨S6, .f32⟩ : BufTy).Contents (Elt F) := fun i => FloatOps.ofBits .f32 (lit1 (S6.rowMajor i))

/-- @main's ten operations, in order. -/
abbrev ops : List (HloOp τ sig (Elt F)) :=
  [ nullary main_cst scales,
    nullary main_cst_0 shifts,
    reshape main_arg0 main_v0 rfl shapeCasts_S32768x768_S32768x128x6,
    unary main_cst main_v1 (broadcastInDim S1x1x6 ![2] bcast_S6_S1x1x6_2 : (⟨S6, .f32⟩ : BufTy).Contents (Elt F) → (⟨S1x1x6, .f32⟩ : BufTy).Contents (Elt F)),
    unary main_v1 main_v2 (broadcastInDim S32768x128x6 ![0, 1, 2] bcast_S1x1x6_S32768x128x6_0_1_2 : (⟨S1x1x6, .f32⟩ : BufTy).Contents (Elt F) → (⟨S32768x128x6, .f32⟩ : BufTy).Contents (Elt F)),
    binary main_v0 main_v2 main_v3 (mulf : (⟨S32768x128x6, .f32⟩ : BufTy).Contents (Elt F) → (⟨S32768x128x6, .f32⟩ : BufTy).Contents (Elt F) → (⟨S32768x128x6, .f32⟩ : BufTy).Contents (Elt F)),
    unary main_cst_0 main_v4 (broadcastInDim S1x1x6 ![2] bcast_S6_S1x1x6_2 : (⟨S6, .f32⟩ : BufTy).Contents (Elt F) → (⟨S1x1x6, .f32⟩ : BufTy).Contents (Elt F)),
    unary main_v4 main_v5 (broadcastInDim S32768x128x6 ![0, 1, 2] bcast_S1x1x6_S32768x128x6_0_1_2 : (⟨S1x1x6, .f32⟩ : BufTy).Contents (Elt F) → (⟨S32768x128x6, .f32⟩ : BufTy).Contents (Elt F)),
    binary main_v3 main_v5 main_v6 (addf : (⟨S32768x128x6, .f32⟩ : BufTy).Contents (Elt F) → (⟨S32768x128x6, .f32⟩ : BufTy).Contents (Elt F) → (⟨S32768x128x6, .f32⟩ : BufTy).Contents (Elt F)),
    reshape main_v6 main_v7 rfl shapeCasts_S32768x128x6_S32768x768 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., reshape_bufs_sub .., unary_bufs_sub .., unary_bufs_sub .., binary_bufs_sub ..,
    unary_bufs_sub .., unary_bufs_sub .., binary_bufs_sub .., reshape_bufs_sub ..⟩

/-- A table of six words broadcast over the 32768 × 128 groups: entry `(r, g, k)` is word `k`. -/
abbrev spread (w : (⟨S6, .f32⟩ : BufTy).Contents (Elt F)) : (⟨S32768x128x6, .f32⟩ : BufTy).Contents (Elt F) :=
  broadcastInDim S32768x128x6 ![0, 1, 2] bcast_S1x1x6_S32768x128x6_0_1_2 (broadcastInDim S1x1x6 ![2] bcast_S6_S1x1x6_2 w)

/-- The operations' composed term: the argument in groups of six, times the scales, plus the shifts, and back. -/
def refTerm (x : (⟨S32768x768, .f32⟩ : BufTy).Contents (Elt F)) : (⟨S32768x768, .f32⟩ : BufTy).Contents (Elt F) :=
  shapeCast S32768x768
    (addf (mulf (shapeCast S32768x128x6 x shapeCasts_S32768x768_S32768x128x6) (spread scales)) (spread shifts))
    shapeCasts_S32768x128x6_S32768x768

/-- On every device, from any memory with zero counters: every weakly fair execution of @main terminates with the
    result at `refTerm` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (by after_results; rfl),
      (h c main_arg0).trans (by after_results)⟩)
    (run_seq scopedRefs_eq scopedSems_eq defs main (fun _ => ops) main_eq (fun _ => ops_sub) m ρ)

end Cert.ReferenceIdeal.HostRun

end
-- ==== Proof.RefArray.lean ====
/-
  The reference's term as the per-column affine map. The reference views row `r` of the argument as 128 groups of 6:
  column `c` is entry `c mod 6` of group `c / 6` (both views list the row's 768 entries in the same row-major order).
  In that view it multiplies entry `(r, g, k)` by scale word `k` and adds shift word `k`, and views the result back. So
  entry `(r, c)` of the result is `x[r, c] · scale(c mod 6) + shift(c mod 6)`.
-/
import proofs.«162741_j82592221102246_2_alg».proof.Proof.RefRun
import proofs.«162741_j82592221102246_2_alg».proof.Proof.Affine
import Idealize.ShloMosaic.Lib.Pipeline.Value
import Idealize.ShloMosaic.Lib.ValueIdx

noncomputable section

namespace Cert.ReferenceIdeal.ArrayValue

open Cert.ReferenceIdeal Cert.ReferenceIdeal.Gen Idealize.ShloMosaic Idealize.ShloMosaic.ValueIdx
open Cert.ReferenceIdeal.HostRun (scales shifts spread refTerm)
open Cert.Affine (colAffine)

variable {F : FTy → Type} [FloatOps F]

/-- Column `n`'s scale: the reference's scale word at `n mod 6`. -/
def scaleAt (n : Nat) : Elt F .f32 := FloatOps.ofBits .f32 (lit0 ⟨n % 6, Nat.mod_lt _ (by decide)⟩)
/-- Column `n`'s shift: the reference's shift word at `n mod 6`. -/
def shiftAt (n : Nat) : Elt F .f32 := FloatOps.ofBits .f32 (lit1 ⟨n % 6, Nat.mod_lt _ (by decide)⟩)

/-- A table of six broadcast over the groups, read at `(r, g, k)`, is its entry `k`. -/
theorem spread_apply (w : S6.Idx → Elt F .f32) (r : Fin 32768) (g : Fin 128) (k : Fin 6) :
    spread w (ix3 r g k) = w (ix1 k) := by
  unfold spread
  refine (broadcastInDim_apply (s := S1x1x6) (t := S32768x128x6) ![0, 1, 2] bcast_S1x1x6_S32768x128x6_0_1_2 _ (ix3 r g k)
    (ix3 (0 : Fin 1) (0 : Fin 1) k) (fun a => ?_)).trans ?_
  · match a with
    | ⟨0, _⟩ => rfl
    | ⟨1, _⟩ => rfl
    | ⟨2, _⟩ => rfl
  · refine broadcastInDim_apply (s := S6) (t := S1x1x6) ![2] bcast_S6_S1x1x6_2 w (ix3 (0 : Fin 1) (0 : Fin 1) k) (ix1 k) (fun a => ?_)
    match a with
    | ⟨0, _⟩ => rfl

/-- Entry `k` of the scale table is the scale of every column with residue `k`. -/
theorem scales_apply (n : Nat) (h : n % 6 < 6) : (scales (F := F)) (ix1 (⟨n % 6, h⟩ : Fin 6)) = scaleAt (F := F) n := by
  unfold scaleAt
  show FloatOps.ofBits .f32 (lit0 (S6.rowMajor (ix1 (⟨n % 6, h⟩ : Fin 6)))) = _
  congr 2
  exact Fin.ext (Shape.rowMajor_val_one _)

/-- Entry `k` of the shift table is the shift of every column with residue `k`. -/
theorem shifts_apply (n : Nat) (h : n % 6 < 6) : (shifts (F := F)) (ix1 (⟨n % 6, h⟩ : Fin 6)) = shiftAt (F := F) n := by
  unfold shiftAt
  show FloatOps.ofBits .f32 (lit1 (S6.rowMajor (ix1 (⟨n % 6, h⟩ : Fin 6)))) = _
  congr 2
  exact Fin.ext (Shape.rowMajor_val_one _)

/-- The reference's term is the per-column affine map with the scale and the shift read at the column's residue. -/
theorem refTerm_eq (x : S32768x768.Idx → Elt F .f32) :
    refTerm x = colAffine (scaleAt (F := F)) (shiftAt (F := F)) x := by
  funext i
  have hi0 : (i 0).val < 32768 := (i 0).isLt
  have hi1 : (i 1).val < 768 := (i 1).isLt
  have hm : (i 1).val % 6 < 6 := Nat.mod_lt _ (by decide)
  have hj : (S32768x128x6.rowMajor (ix3 (⟨(i 0).val, hi0⟩ : Fin 32768) (⟨(i 1).val / 6, by omega⟩ : Fin 128) (⟨(i 1).val % 6, hm⟩ : Fin 6))).val
      = (S32768x768.rowMajor i).val := by
    rw [Shape.rowMajor_val_three, Shape.rowMajor_val_two]
    show ((i 0).val * 128 + (i 1).val / 6) * 6 + (i 1).val % 6 = (i 0).val * 768 + (i 1).val
    omega
  unfold refTerm colAffine
  rw [shapeCast_apply _ shapeCasts_S32768x128x6_S32768x768 i _ hj]
  show FloatOps.addf (FloatOps.mulf (shapeCast S32768x128x6 x shapeCasts_S32768x768_S32768x128x6 _) (spread scales _)) (spread shifts _) = _
  rw [shapeCast_apply x shapeCasts_S32768x768_S32768x128x6 _ i hj.symm, spread_apply, spread_apply, scales_apply, shifts_apply]

end Cert.ReferenceIdeal.ArrayValue

end
-- ==== Proof.lean ====
/- The proof of `Cert.Claim` for a per-column affine map of a 32768 × 768 array: `out[r, c] = x[r, c] · s(c) + t(c)`.

   The kernel sweeps the rows in 16 blocks of 2048 and multiplies each block by a full row of 768 scale words and adds
   a full row of 768 shift words (Proof/KernelArray.lean: what each grid point writes back, the blocks tiling the array,
   the result array as one function of the argument). The reference views each row as 128 groups of 6, multiplies by
   a table of six scale words and adds a table of six shift words (Proof/RefRun.lean: its ten host operations run;
   Proof/RefArray.lean: their composed term read entry by entry, column `c` being entry `c mod 6` of group `c / 6`).
   Both are `colAffine` of Proof/Affine.lean, and the kernel's rows are the reference's tables repeated 128 times
   (Proof/Tables.lean, checked word by word). Product first, then the sum, on both sides: the two results are equal
   term by term, with no law of the extended reals and no use of the inputs' finiteness.

   The three frames are the generated ones (the reference's is its run with the result dropped); the idealization
   rewrote nothing, so `preserves` is trivial. -/
import proofs.«162741_j82592221102246_2_alg».proof.Defs
import proofs.«162741_j82592221102246_2_alg».proof.Proof.Gen.Kernel
import proofs.«162741_j82592221102246_2_alg».proof.Proof.Gen.Kernel.Skeleton
import proofs.«162741_j82592221102246_2_alg».proof.Proof.Gen.Kernel.Launch
import proofs.«162741_j82592221102246_2_alg».proof.Proof.Gen.Kernel.Points
import proofs.«162741_j82592221102246_2_alg».proof.Proof.Gen.Kernel.Frame
import proofs.«162741_j82592221102246_2_alg».proof.Proof.Gen.KernelIdeal
import proofs.«162741_j82592221102246_2_alg».proof.Proof.Gen.KernelIdeal.Skeleton
import proofs.«162741_j82592221102246_2_alg».proof.Proof.Gen.KernelIdeal.Launch
import proofs.«162741_j82592221102246_2_alg».proof.Proof.Gen.KernelIdeal.Points
import proofs.«162741_j82592221102246_2_alg».proof.Proof.Gen.KernelIdeal.Frame
import proofs.«162741_j82592221102246_2_alg».proof.Proof.Gen.KernelIdeal.Value
import proofs.«162741_j82592221102246_2_alg».proof.Proof.Gen.ReferenceIdeal
import proofs.«162741_j82592221102246_2_alg».proof.Proof.Gen.Pre_finite_inputs
import proofs.«162741_j82592221102246_2_alg».proof.Proof.Affine
import proofs.«162741_j82592221102246_2_alg».proof.Proof.Tables
import proofs.«162741_j82592221102246_2_alg».proof.Proof.KernelArray
import proofs.«162741_j82592221102246_2_alg».proof.Proof.RefRun
import proofs.«162741_j82592221102246_2_alg».proof.Proof.RefArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HostRun.run (F := Ideal) m ρ)

/-- The ideal pass rewrote no operation of the kernel. -/
theorem preserves : Cert.preserves_Kernel_KernelIdeal := trivial

/-- Column `n`'s scale is the same extended real on both sides: the same word, read at `n` in the kernel's row and
    at `n mod 6` in the reference's table. -/
theorem scale_eq (n : Nat) (h : n < 768) :
    Cert.KernelIdeal.ArrayValue.scaleAt (F := Ideal) n = Cert.ReferenceIdeal.ArrayValue.scaleAt (F := Ideal) n := by
  unfold Cert.KernelIdeal.ArrayValue.scaleAt Cert.ReferenceIdeal.ArrayValue.scaleAt
  rw [Cert.Tables.scale_period ⟨n, h⟩]

/-- Column `n`'s shift is the same extended real on both sides. -/
theorem shift_eq (n : Nat) (h : n < 768) :
    Cert.KernelIdeal.ArrayValue.shiftAt (F := Ideal) n = Cert.ReferenceIdeal.ArrayValue.shiftAt (F := Ideal) n := by
  unfold Cert.KernelIdeal.ArrayValue.shiftAt Cert.ReferenceIdeal.ArrayValue.shiftAt
  rw [Cert.Tables.shift_period ⟨n, h⟩]

/-- From arguments that agree, the kernel's result array and the reference's are the per-column affine map of the
    argument with scales and shifts that agree on every column. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.HostRun.run (F := Ideal) m' ρ')
  rw [hagree c, Cert.ReferenceIdeal.ArrayValue.refTerm_eq]
  exact (Cert.Affine.colAffine_congr scale_eq shift_eq _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
